-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x131072 : Shape := ⟨2, ![256, 131072]⟩
abbrev S256 : Shape := ⟨1, ![256]⟩
abbrev S_ : Shape := ⟨0, ![]⟩

class Facts : Prop where
  bcast_S_S256x131072 : S_.BroadcastsInDim S256x131072 (![] : Fin 0 → Fin S256x131072.rank)
  reducesTo_S256x131072_S_d0_1 : S256x131072.ReducesTo [0, 1] S_
  h_S_ : 0 < S_.numel
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S256x131072 .f32) (main_arg1 : FVec F S256 .f32) (main_arg2 : FVec F S256 .f32) (main_arg3 : FVec F S256 .f32) (main_arg4 : FVec F S256 .f32) : IVec S_ 1 :=
  let main_v0 : FVec F S256x131072 .f32 := Host.absf main_arg0
  let main_cst : FVec F S_ .f32 := constant S_ .f32 0x7F800000#32
  let main_v1 : FVec F S256x131072 .f32 := broadcastInDim S256x131072 ![] bcast_S_S256x131072 main_cst
  let main_v2 : IVec S256x131072 1 := cmpf .olt main_v0 main_v1
  let main_c : IVec S_ 1 := constantI S_ 1 1#1
  let main_v3 : IVec S_ 1 := (fun x v => Host.reduce IntOp.andi x v reducesTo_S256x131072_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S256x131072 : Shape := ⟨2, ![256, 131072]⟩
abbrev S256 : Shape := ⟨1, ![256]⟩
abbrev S256x1 : Shape := ⟨2, ![256, 1]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S256x131072, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x1, .f32⟩
  | .hbm, ⟨6, _⟩ => ⟨S256x1, .f32⟩
  | .hbm, ⟨7, _⟩ => ⟨S256x1, .f32⟩
  | .hbm, ⟨8, _⟩ => ⟨S256x1, .f32⟩
  | .hbm, ⟨9, _⟩ => ⟨S256x131072, .f32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1024, .f32⟩
  | .local _ .vmem, ⟨7, _⟩ => ⟨S256x1024, .f32⟩
  | _, _ => ⟨S256x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256_S256x1 : S256.ShapeCasts S256x1
  inb_S256x1024_S256x1024_0_0 : ∀ a, (![0, 0] : Fin 2 → Nat) a + S256x1024.size a ≤ S256x1024.size a
  h_S256x1024 : 0 < S256x1024.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x1024_d0_w32 : S256x1024.Iotas .tc 32 [0]
  rotates_S256x1024_d0 : S256x1024.Rotates 0 none
  broadcasts_S256x1_S256x1024 : S256x1.Broadcasts S256x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x131072.size a
  hwx0_0 : ∀ i : grid0.Coords, EltTy.bits .f32 = 32 ∨ (Rect.block (s := S256x131072) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x131072.size a
  hwx0_5 : ∀ i : grid0.Coords, EltTy.bits .f32 = 32 ∨ (Rect.block (s := S256x131072) S256x1024.size (cc0_transform_5 i) (hinb0_5 i)).WholeWords (EltTy.packing .f32)

variable [Facts₀]

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x131072 : Shape := ⟨2, ![256, 131072]⟩
abbrev S256 : Shape := ⟨1, ![256]⟩
abbrev S256x1 : Shape := ⟨2, ![256, 1]⟩
abbrev S_ : Shape := ⟨0, ![]⟩
abbrev S1x131072 : Shape := ⟨2, ![1, 131072]⟩
abbrev S255x131072 : Shape := ⟨2, ![255, 131072]⟩
abbrev S2x131072 : Shape := ⟨2, ![2, 131072]⟩
abbrev S254x131072 : Shape := ⟨2, ![254, 131072]⟩
abbrev S3x131072 : Shape := ⟨2, ![3, 131072]⟩
abbrev S253x131072 : Shape := ⟨2, ![253, 131072]⟩
abbrev S4x131072 : Shape := ⟨2, ![4, 131072]⟩
abbrev S252x131072 : Shape := ⟨2, ![252, 131072]⟩

abbrev nBuf : Space → Nat
  | .hbm => 52
  | .vmem => 0
  | .smem => 0
  | _ => 0

abbrev bufTy : (tb : Table) → Fin (tcTables nBuf tb) → BufTy
  | .hbm, ⟨0, _⟩ => ⟨S256x131072, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x1, .f32⟩
  | .hbm, ⟨6, _⟩ => ⟨S256x1, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S1x131072, .f32⟩
  | .hbm, ⟨11, _⟩ => ⟨S255x131072, .f32⟩
  | .hbm, ⟨12, _⟩ => ⟨S256x131072, .f32⟩
  | .hbm, ⟨13, _⟩ => ⟨S_, .f32⟩
  | .hbm, ⟨14, _⟩ => ⟨S2x131072, .f32⟩
  | .hbm, ⟨15, _⟩ => ⟨S254x131072, .f32⟩
  | .hbm, ⟨16, _⟩ => ⟨S256x131072, .f32⟩
  | .hbm, ⟨17, _⟩ => ⟨S_, .f32⟩
  | .hbm, ⟨18, _⟩ => ⟨S3x131072, .f32⟩
  | .hbm, ⟨19, _⟩ => ⟨S253x131072, .f32⟩
  | .hbm, ⟨20, _⟩ => ⟨S256x131072, .f32⟩
  | .hbm, ⟨21, _⟩ => ⟨S_, .f32⟩
  | .hbm, ⟨22, _⟩ => ⟨S4x131072, .f32⟩
  | .hbm, ⟨23, _⟩ => ⟨S252x131072, .f32⟩
  | .hbm, ⟨24, _⟩ => ⟨S256x131072, .f32⟩
  | .hbm, ⟨25, _⟩ => ⟨S256x131072, .f32⟩
  | .hbm, ⟨26, _⟩ => ⟨S256x131072, .f32⟩
  | .hbm, ⟨27, _⟩ => ⟨S_, .f32⟩
  | .hbm, ⟨28, _⟩ => ⟨S256x131072, .f32⟩
  | .hbm, ⟨29, _⟩ => ⟨S256x131072, .f32⟩
  | .hbm, ⟨30, _⟩ => ⟨S256x131072, .f32⟩
  | .hbm, ⟨31, _⟩ => ⟨S256x131072, .f32⟩
  | .hbm, ⟨32, _⟩ => ⟨S256x131072, .f32⟩
  | .hbm, ⟨33, _⟩ => ⟨S_, .f32⟩
  | .hbm, ⟨34, _⟩ => ⟨S256x131072, .f32⟩
  | .hbm, ⟨35, _⟩ => ⟨S256x131072, .f32⟩
  | .hbm, ⟨36, _⟩ => ⟨S256x131072, .f32⟩
  | .hbm, ⟨37, _⟩ => ⟨S256x131072, .f32⟩
  | .hbm, ⟨38, _⟩ => ⟨S256x131072, .f32⟩
  | .hbm, ⟨39, _⟩ => ⟨S_, .f32⟩
  | .hbm, ⟨40, _⟩ => ⟨S256x131072, .f32⟩
  | .hbm, ⟨41, _⟩ => ⟨S256x131072, .f32⟩
  | .hbm, ⟨42, _⟩ => ⟨S256x131072, .f32⟩
  | .hbm, ⟨43, _⟩ => ⟨S256x131072, .f32⟩
  | .hbm, ⟨44, _⟩ => ⟨S256x131072, .f32⟩
  | .hbm, ⟨45, _⟩ => ⟨S_, .f32⟩
  | .hbm, ⟨46, _⟩ => ⟨S256x131072, .f32⟩
  | .hbm, ⟨47, _⟩ => ⟨S256x131072, .f32⟩
  | .hbm, ⟨48, _⟩ => ⟨S256x131072, .f32⟩
  | .hbm, ⟨49, _⟩ => ⟨S_, .f32⟩
  | .hbm, ⟨50, _⟩ => ⟨S256x131072, .f32⟩
  | .hbm, ⟨51, _⟩ => ⟨S256x131072, .f32⟩
  | _, _ => ⟨S256x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]

class Facts₀ : Prop where
  bcast_S256_S256x1_0 : S256.BroadcastsInDim S256x1 (![0] : Fin 1 → Fin S256x1.rank)
  bcast_S_S1x131072 : S_.BroadcastsInDim S1x131072 (![] : Fin 0 → Fin S1x131072.rank)
  slices_S256x131072_S255x131072_0_0 : S256x131072.Slices ![0, 0] S255x131072
  concatenates_S1x131072_S255x131072_S256x131072_d0 : Shape.Concatenates [S1x131072, S255x131072] S256x131072 0
  bcast_S_S2x131072 : S_.BroadcastsInDim S2x131072 (![] : Fin 0 → Fin S2x131072.rank)
  slices_S256x131072_S254x131072_0_0 : S256x131072.Slices ![0, 0] S254x131072
  concatenates_S2x131072_S254x131072_S256x131072_d0 : Shape.Concatenates [S2x131072, S254x131072] S256x131072 0
  bcast_S_S3x131072 : S_.BroadcastsInDim S3x131072 (![] : Fin 0 → Fin S3x131072.rank)
  slices_S256x131072_S253x131072_0_0 : S256x131072.Slices ![0, 0] S253x131072
  concatenates_S3x131072_S253x131072_S256x131072_d0 : Shape.Concatenates [S3x131072, S253x131072] S256x131072 0
  bcast_S_S4x131072 : S_.BroadcastsInDim S4x131072 (![] : Fin 0 → Fin S4x131072.rank)
  slices_S256x131072_S252x131072_0_0 : S256x131072.Slices ![0, 0] S252x131072
  concatenates_S4x131072_S252x131072_S256x131072_d0 : Shape.Concatenates [S4x131072, S252x131072] S256x131072 0
  bcast_S256x1_S256x131072_0_1 : S256x1.BroadcastsInDim S256x131072 (![0, 1] : Fin 2 → Fin S256x131072.rank)
  bcast_S_S256x131072 : S_.BroadcastsInDim S256x131072 (![] : Fin 0 → Fin S256x131072.rank)

variable [Facts₀]

class Facts : Prop extends Facts₀ where

variable [Facts]
-- ==== Proof.DelayChain.lean ====
/-
  The function both programs compute, stated once, index by index.

  A bitstream `x` of 256 time steps (rows) by 131072 lanes (columns) and four per-time-step streams `c1 … c4` go through
  a chain of four gated stages. With `d_k` the stream `x` DELAYED by `k` rows — row `t` of `d_k` is row `t − k` of `x`
  from row `k` on, and zero on the first `k` rows —

      n1 = 1 − x · c1          n2 = 1 − (n1 · c2) · d_1        n3 = 1 − (n2 · c3) · d_2
      n4 = 1 − (n3 · c4) · d_3                out = 1 − n4 · d_4

  at every (row, column), `c_i` read at the row. Nothing here depends on which numbers the floats are: the
  function is stated over any float instance `F`, products grouped exactly as written above, so two programs that
  spell this grouping compute it at every instance and no law of arithmetic is needed to compare them.
-/
import Idealize.ShloMosaic.Lib.ValueIdx

noncomputable section

namespace Cert.DelayChain

open Idealize.ShloMosaic Idealize.ShloMosaic.ValueIdx

variable {F : FTy → Type} [FloatOps F]

/-- The streams' shape: 256 time steps by 131072 lanes. -/
abbrev Stream : Shape := ⟨2, ![256, 131072]⟩
/-- A per-time-step stream: 256 entries. -/
abbrev Steps : Shape := ⟨1, ![256]⟩

/-- The float zero (the word `0x00000000`). -/
abbrev zero : F .f32 := FloatOps.ofBits .f32 0x00000000#32
/-- The float one (the word `0x3F800000`). -/
abbrev one : F .f32 := FloatOps.ofBits .f32 0x3F800000#32

/-- The stream `x` delayed by `k` rows, at row `t` and column `n`: row `t − k` of `x` from row `k` on, zero before. -/
def delayed (k : Nat) (x : Stream.Idx → F .f32) (t : Fin 256) (n : Fin 131072) : F .f32 :=
  if h : k ≤ t.val then x (ix2 ⟨t.val - k, by have := t.isLt; omega⟩ n) else zero

/-- One gated stage: `1 − (a · b) · d`. -/
def stage (a b d : F .f32) : F .f32 :=
  FloatOps.subf one (FloatOps.mulf (FloatOps.mulf a b) d)

/-- The chain's output at index `j = (t, n)`. -/
def out (x : Stream.Idx → F .f32) (c1 c2 c3 c4 : Steps.Idx → F .f32) (j : Stream.Idx) : F .f32 :=
  FloatOps.subf one (FloatOps.mulf
    (stage (stage (stage (FloatOps.subf one (FloatOps.mulf (x j) (c1 (ix1 (j 0))))) (c2 (ix1 (j 0))) (delayed 1 x (j 0) (j 1)))
        (c3 (ix1 (j 0))) (delayed 2 x (j 0) (j 1)))
      (c4 (ix1 (j 0))) (delayed 3 x (j 0) (j 1)))
    (delayed 4 x (j 0) (j 1)))

/-- From row `k` on the delayed stream is `x` `k` rows earlier. -/
theorem delayed_of_le (k : Nat) (x : Stream.Idx → F .f32) (t : Fin 256) (n : Fin 131072) (h : k ≤ t.val)
    (i : Stream.Idx) (h0 : (i 0).val + k = t.val) (h1 : (i 1).val = n.val) : delayed k x t n = x i := by
  unfold delayed
  rw [dif_pos h]
  congr 1
  funext a
  match a with
  | ⟨0, _⟩ => exact Fin.ext (by show t.val - k = (i 0).val; omega)
  | ⟨1, _⟩ => exact Fin.ext h1.symm

/-- On the first `k` rows the delayed stream is zero. -/
theorem delayed_of_lt (k : Nat) (x : Stream.Idx → F .f32) (t : Fin 256) (n : Fin 131072) (h : t.val < k) :
    delayed k x t n = zero := by
  unfold delayed
  rw [dif_neg (by omega)]

end Cert.DelayChain

end
-- ==== Proof.LibDelayRows.lean ====
/-
  A DELAY ALONG THE ROWS, in the two spellings a kernel and its jnp reference give it, each read at an index.

  Delaying a matrix `x` of `R` rows by `k` rows means: row `r` of the result is row `r − k` of `x` from row `k` on, and a
  fill value on the first `k` rows.

  * A jnp reference writes `concatenate([fill block of k rows, x[:R − k]], axis = 0)`: a block of `a` rows every entry of
    which is the fill value, joined on top of the slice of the first `b` rows of `x`, `a + b = R`
    (`hostDelay_apply`).
  * A kernel writes `where(row ≥ k, roll(x, k, axis = 0), fill)`: the rotation brings the last `k` rows around to the
    front, and the comparison of the row number with `k` masks exactly those rows (`rollMask_apply`).

  Both are `if k ≤ r then x (r − k, q) else fill` at `(r, q)`, for any extents, any element type and any fill value;
  no arithmetic on the elements is involved.
-/
import Idealize.ShloMosaic.Lib.KernelVsHost
import Idealize.ShloMosaic.Lib.Affine
import Idealize.ShloMosaic.Lib.WordArith

namespace Idealize.ShloMosaic.DelayRows

open Idealize.ShloMosaic Idealize.ShloMosaic.ValueIdx

variable {α : Type}

/-- THE HOST'S DELAY: a block `z` of `a` rows, every entry `fill`, joined along the rows on top of the first `b` rows
    of `x` (`a + b = R`), read at `(r, q)`: row `r − a` of `x` from row `a` on, `fill` before. -/
theorem hostDelay_apply {R C a b : Nat} (hab : a + b = R)
    (hc : Shape.Concatenates [(⟨2, ![a, C]⟩ : Shape), ⟨2, ![b, C]⟩] ⟨2, ![R, C]⟩ 0)
    (hs : (⟨2, ![R, C]⟩ : Shape).Slices ![0, 0] ⟨2, ![b, C]⟩)
    (z : (⟨2, ![a, C]⟩ : Shape).Idx → α) (fill : α) (hz : ∀ i, z i = fill)
    (x : (⟨2, ![R, C]⟩ : Shape).Idx → α) (r : Fin R) (q : Fin C) :
    concatenate ⟨2, ![R, C]⟩ 0 [⟨⟨2, ![a, C]⟩, z⟩, ⟨⟨2, ![b, C]⟩, extractStridedSlice ⟨2, ![b, C]⟩ ![0, 0] x hs⟩] hc (ix2 r q)
      = if h : a ≤ r.val then x (ix2 ⟨r.val - a, by have := r.isLt; omega⟩ q) else fill := by
  by_cases h : a ≤ r.val
  · rw [dif_pos h]
    have hr := r.isLt
    refine (concatenate_pair_apply_right (0 : Fin 2) z (extractStridedSlice ⟨2, ![b, C]⟩ ![0, 0] x hs) hc (ix2 r q) rfl rfl
      (ix2 ⟨r.val - a, by omega⟩ q) ?_ ?_).trans ?_
    · intro d hd
      match d with
      | ⟨0, _⟩ => exact absurd rfl hd
      | ⟨1, _⟩ => rfl
    · show (r.val - a) + a = r.val
      omega
    · exact extractStridedSlice_apply ![0, 0] x hs (ix2 ⟨r.val - a, by omega⟩ q) (ix2 ⟨r.val - a, by omega⟩ q)
        (fun d => match d with
          | ⟨0, _⟩ => by show r.val - a = 0 + (r.val - a); omega
          | ⟨1, _⟩ => by show q.val = 0 + q.val; omega)
  · rw [dif_neg h]
    refine (concatenate_pair_apply_left (0 : Fin 2) z (extractStridedSlice ⟨2, ![b, C]⟩ ![0, 0] x hs) hc (ix2 r q) rfl
      (ix2 ⟨r.val, by omega⟩ q) ?_).trans (hz _)
    intro d
    match d with
    | ⟨0, _⟩ => rfl
    | ⟨1, _⟩ => rfl

/-- THE KERNEL'S DELAY: the rotation of `x` by `k` along the rows, kept where the row number is at least `k` and
    replaced by `fill` elsewhere, read at `(r, q)`: row `r − k` of `x` from row `k` on, `fill` before. The row numbers
    are compared as signed 32-bit words, so the extent must stay below `2 ^ 31`. -/
theorem rollMask_apply {R C : Nat} (k : Nat) (hkR : k < R) (hR : R ≤ 2 ^ 31)
    (hiota : (⟨2, ![R, C]⟩ : Shape).Iotas .tc 32 [0]) (hrot : (⟨2, ![R, C]⟩ : Shape).Rotates 0 none)
    (x : (⟨2, ![R, C]⟩ : Shape).Idx → α) (fill : α) (r : Fin R) (q : Fin C) :
    select (cmpi .sge (iota .tc ⟨2, ![R, C]⟩ 32 [0] hiota) (broadcast ⟨2, ![R, C]⟩ (BitVec.ofNat 32 k)))
        (dynamicRotate 0 (BitVec.ofNat 32 k) none x hrot) (broadcast ⟨2, ![R, C]⟩ fill) (ix2 r q)
      = if h : k ≤ r.val then x (ix2 ⟨r.val - k, by have := r.isLt; omega⟩ q) else fill := by
  have hr := r.isLt
  have hk32 : k < 2 ^ 31 := by omega
  have hkn : (BitVec.ofNat 32 k).toNat = k := by
    rw [BitVec.toNat_ofNat]; exact Nat.mod_eq_of_lt (by omega)
  -- the mask's bit at (r, q) says whether k ≤ r
  have hbit : cmpi .sge (iota .tc ⟨2, ![R, C]⟩ 32 [0] hiota) (broadcast ⟨2, ![R, C]⟩ (BitVec.ofNat 32 k)) (ix2 r q) = 1#1
      ↔ k ≤ r.val := by
    show IntOp.cmpi .sge (iota .tc ⟨2, ![R, C]⟩ 32 [0] hiota (ix2 r q)) (BitVec.ofNat 32 k) = 1#1 ↔ _
    rw [iota_single_apply, IntOp.cmpi_sge]
    show (BitVec.ofNat 32 k).toInt ≤ (BitVec.ofNat 32 r.val).toInt ↔ _
    rw [WordArith.toInt_ofNat_small k hk32, WordArith.toInt_ofNat_small r.val (by omega)]
    omega
  rw [select_apply]
  by_cases h : k ≤ r.val
  · rw [dif_pos h, hbit.mpr h, select_one]
    refine dynamicRotate_apply (0 : Fin 2) (BitVec.ofNat 32 k) x hrot (ix2 r q) (ix2 ⟨r.val - k, by omega⟩ q) ?_
    intro d
    match d with
    | ⟨0, _⟩ =>
      show r.val - k = (r.val + R - (BitVec.ofNat 32 k).toNat % R) % R
      rw [hkn, Nat.mod_eq_of_lt hkR, show r.val + R - k = (r.val - k) + R by omega, Nat.add_mod_right,
        Nat.mod_eq_of_lt (by omega)]
    | ⟨1, _⟩ => rfl
  · rw [dif_neg h, eq_zero_of_ne_one (fun e => h (hbit.mp e)), select_zero]
    rfl

end Idealize.ShloMosaic.DelayRows
-- ==== Proof.KernelBlock.lean ====
/-
  The kernel's body on one block.

  A grid point holds a block of 1024 lanes of the input stream, ALL 256 time steps of it, and the four per-time-step
  streams as columns. Because the whole time axis is in the block, a delay by k rows of the stream restricted to
  these lanes is the delay of the block: the body rolls the block by k along the rows and masks the first k rows
  to zero (`rolled k`, read at an index by the general lemma on rolled-and-masked delays). The generated value leg
  has already read the rest of the body at an index (`Value.E5`: the chain of products and differences over the
  block, the columns and the four delayed blocks). So if the block holds lanes of a stream `x` — entry (r, q) of
  the block is entry (r, n) of `x` — and the columns hold `c1 … c4`, the block the body leaves holds the chain's
  output at (r, n): `block_eq_out`.
-/
import proofs.«119940_j1468878815467_1_alg».proof.Proof.Gen.KernelIdeal.Value
import proofs.«119940_j1468878815467_1_alg».proof.Proof.DelayChain
import proofs.«119940_j1468878815467_1_alg».proof.Proof.LibDelayRows

noncomputable section

namespace Cert.KernelIdeal.ChainValue

open Cert.KernelIdeal Cert.KernelIdeal.Gen Cert.DelayChain
open Idealize.ShloMosaic Idealize.ShloMosaic.ValueIdx

variable {F : FTy → Type} [FloatOps F]

/-! ## The four delays of the block -/

/-- The body's 1-row delay of its block — the block rolled by 1 along the rows, masked by `row ≥ 1` — read at `(r, q)`. -/
theorem rolled1_apply (P0 : Vec F S256x1024 .f32) (r : Fin 256) (q : Fin 1024) :
    k0_pay4 P0 (ix2 r q) = if h : 1 ≤ r.val then P0 (ix2 ⟨r.val - 1, by have := r.isLt; omega⟩ q) else zero := by
  unfold k0_pay4
  exact DelayRows.rollMask_apply 1 (by decide) (by decide) Facts₀.iota_S256x1024_d0_w32 Facts₀.rotates_S256x1024_d0 P0 zero r q

/-- The body's 2-row delay of its block — the block rolled by 2 along the rows, masked by `row ≥ 2` — read at `(r, q)`. -/
theorem rolled2_apply (P0 : Vec F S256x1024 .f32) (r : Fin 256) (q : Fin 1024) :
    k0_pay5 P0 (ix2 r q) = if h : 2 ≤ r.val then P0 (ix2 ⟨r.val - 2, by have := r.isLt; omega⟩ q) else zero := by
  unfold k0_pay5
  exact DelayRows.rollMask_apply 2 (by decide) (by decide) Facts₀.iota_S256x1024_d0_w32 Facts₀.rotates_S256x1024_d0 P0 zero r q

/-- The body's 3-row delay of its block — the block rolled by 3 along the rows, masked by `row ≥ 3` — read at `(r, q)`. -/
theorem rolled3_apply (P0 : Vec F S256x1024 .f32) (r : Fin 256) (q : Fin 1024) :
    k0_pay6 P0 (ix2 r q) = if h : 3 ≤ r.val then P0 (ix2 ⟨r.val - 3, by have := r.isLt; omega⟩ q) else zero := by
  unfold k0_pay6
  exact DelayRows.rollMask_apply 3 (by decide) (by decide) Facts₀.iota_S256x1024_d0_w32 Facts₀.rotates_S256x1024_d0 P0 zero r q

/-- The body's 4-row delay of its block — the block rolled by 4 along the rows, masked by `row ≥ 4` — read at `(r, q)`. -/
theorem rolled4_apply (P0 : Vec F S256x1024 .f32) (r : Fin 256) (q : Fin 1024) :
    k0_pay7 P0 (ix2 r q) = if h : 4 ≤ r.val then P0 (ix2 ⟨r.val - 4, by have := r.isLt; omega⟩ q) else zero := by
  unfold k0_pay7
  exact DelayRows.rollMask_apply 4 (by decide) (by decide) Facts₀.iota_S256x1024_d0_w32 Facts₀.rotates_S256x1024_d0 P0 zero r q

/-- If column `q` of the block is column `n` of the stream `x`, the block's delay by `k` rows at `(r, q)` is the
    stream's delay by `k` rows at `(r, n)`: a delay moves along the rows only. -/
theorem delayed_of_lane (k : Nat) (x : Stream.Idx → F .f32) (P0 : Vec F S256x1024 .f32) (q : Fin 1024) (n : Fin 131072)
    (h0 : ∀ r : Fin 256, P0 (ix2 r q) = x (ix2 r n)) (r : Fin 256) :
    (if h : k ≤ r.val then P0 (ix2 ⟨r.val - k, by have := r.isLt; omega⟩ q) else zero) = delayed k x r n := by
  unfold delayed
  by_cases h : k ≤ r.val
  · rw [dif_pos h, dif_pos h, h0]
  · rw [dif_neg h, dif_neg h]

/-! ## The block the body leaves -/

/-- THE BODY ON A BLOCK OF LANES: if column `q` of the input block is column `n` of the stream `x` and the four column
    blocks hold `c1 … c4`, then entry `(r, q)` of what the body leaves is the chain's output at `(r, n)`. -/
theorem block_eq_out (x : Stream.Idx → F .f32) (c1 c2 c3 c4 : Steps.Idx → F .f32)
    (P0 : Vec F S256x1024 .f32) (P1 P2 P3 P4 : Vec F S256x1 .f32) (q : Fin 1024) (n : Fin 131072)
    (h0 : ∀ r : Fin 256, P0 (ix2 r q) = x (ix2 r n))
    (h1 : ∀ r : Fin 256, P1 (ix2 r (0 : Fin 1)) = c1 (ix1 r))
    (h2 : ∀ r : Fin 256, P2 (ix2 r (0 : Fin 1)) = c2 (ix1 r))
    (h3 : ∀ r : Fin 256, P3 (ix2 r (0 : Fin 1)) = c3 (ix1 r))
    (h4 : ∀ r : Fin 256, P4 (ix2 r (0 : Fin 1)) = c4 (ix1 r)) (r : Fin 256) :
    Value.E5 P0 P1 P2 P3 P4 (ix2 r q) = out x c1 c2 c3 c4 (ix2 r n) := by
  -- where the block index (r, q) reads each operand: the full-block operands at (r, q), the columns at (r, 0)
  have full : ∀ f : S256x1024.Idx → S256x1024.Idx, (∀ y, (f y 0).val = (y 0).val) → (∀ y, (f y 1).val = (y 1).val) →
      f (ix2 r q) = ix2 r q := fun f f0 f1 => funext fun a => by
    match a with
    | ⟨0, _⟩ => exact Fin.ext (f0 (ix2 r q))
    | ⟨1, _⟩ => exact Fin.ext (f1 (ix2 r q))
  have col : ∀ f : S256x1024.Idx → S256x1.Idx, (∀ y, (f y 0).val = (y 0).val) →
      f (ix2 r q) = ix2 r (0 : Fin 1) := fun f f0 => funext fun a => by
    match a with
    | ⟨0, _⟩ => exact Fin.ext (f0 (ix2 r q))
    | ⟨1, _⟩ => exact Fin.ext (by have := idx2_lt1 (f (ix2 r q)); show (f (ix2 r q) 1).val = 0; omega)
  have i0 := full Value.ix5_0 (fun _ => rfl) (fun _ => rfl)
  have i1 := col Value.ix5_1 (fun _ => rfl)
  have i2 := col Value.ix5_2 (fun _ => rfl)
  have i3 := full Value.ix5_3 (fun _ => rfl) (fun _ => rfl)
  have i4 := col Value.ix5_4 (fun _ => rfl)
  have i5 := full Value.ix5_5 (fun _ => rfl) (fun _ => rfl)
  have i6 := col Value.ix5_6 (fun _ => rfl)
  have i7 := full Value.ix5_7 (fun _ => rfl) (fun _ => rfl)
  have i8 := full Value.ix5_8 (fun _ => rfl) (fun _ => rfl)
  show FloatOps.subf one (FloatOps.mulf (FloatOps.subf one (FloatOps.mulf (FloatOps.mulf (FloatOps.subf one (FloatOps.mulf
      (FloatOps.mulf (FloatOps.subf one (FloatOps.mulf (FloatOps.mulf (FloatOps.subf one (FloatOps.mulf (P0 (Value.ix5_0 (ix2 r q)))
      (P1 (Value.ix5_1 (ix2 r q))))) (P2 (Value.ix5_2 (ix2 r q)))) (k0_pay4 P0 (Value.ix5_3 (ix2 r q))))) (P3 (Value.ix5_4 (ix2 r q))))
      (k0_pay5 P0 (Value.ix5_5 (ix2 r q))))) (P4 (Value.ix5_6 (ix2 r q)))) (k0_pay6 P0 (Value.ix5_7 (ix2 r q)))))
      (k0_pay7 P0 (Value.ix5_8 (ix2 r q)))) = _
  rw [i0, i1, i2, i3, i4, i5, i6, i7, i8, rolled1_apply, rolled2_apply, rolled3_apply, rolled4_apply,
    delayed_of_lane 1 x P0 q n h0, delayed_of_lane 2 x P0 q n h0, delayed_of_lane 3 x P0 q n h0, delayed_of_lane 4 x P0 q n h0,
    h0, h1, h2, h3, h4]
  rfl

end Cert.KernelIdeal.ChainValue

end
-- ==== Proof.KernelValue.lean ====
/-
  The kernel computes the chain.

  The grid has 128 points; point t stages lanes 1024·t … 1024·t + 1023 of the input stream (all 256 rows), the four
  column arrays whole, and writes back the same lanes of the result. So entry (r, q) of the input block at point t is
  entry (r, 1024·t + q) of the stream (`lanes_apply`), each column block's entry (r, 0) is the argument's entry r
  (`column k_apply`: the host reshaped the 256 entries to a column before the call), and by the body on a block
  (`block_eq_out`) what point t writes back is block t of ONE function of the argument arrays, the chain's output
  `DelayChain.out` (`writes_back`). Every index of the result lies in the block of the point numbered by its lane
  divided by 1024 (`covered`), so after the run the result array IS that function (`final`, `run`).
-/
import proofs.«119940_j1468878815467_1_alg».proof.Proof.KernelBlock
import Idealize.ShloMosaic.Lib.Pipeline.Value
import Idealize.ShloMosaic.Lib.StableHlo.Run

set_option maxRecDepth 16384

noncomputable section

namespace Cert.KernelIdeal.ChainValue

open Cert.KernelIdeal Cert.KernelIdeal.Gen Cert.DelayChain
open Idealize.ShloMosaic Idealize.ShloMosaic.TcCoe Idealize.SL.Sem Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

/-! ## Where the windows' blocks sit -/

theorem zero_offsets : (![0, 0] : Fin 2 → Nat) = fun _ => 0 := funext fun a => by fin_cases a <;> rfl

/-- The printed index maps, decided over the 128 grid points: the stream's and the result's windows are at block
    (0, t); the four column windows at block (0, 0). -/
theorem grid_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

theorem point_lt (t : Fin cfg0.N) : t.val < 128 := lt_of_lt_of_eq t.isLt N_0

/-- The input block at point `t` holds lanes `1024·t …` of the stream: entry `(r, q)` is the stream's `(r, 1024·t + q)`. -/
theorem lanes_apply (c : Dev nD) (t : Fin cfg0.N) (r : Fin 256) (q : Fin 1024) :
    iblk m c 0 t (ix2 r q)
      = (m ((c : Thread nD τ).loc main_arg0)) (ix2 r ⟨1024 * t.val + q.val, by have := point_lt t; have := q.isLt; omega⟩) := by
  obtain ⟨e00, e01, -⟩ := grid_facts t
  show V m c main_arg0 (((cfg0.win 0).blk t).view.emb (ix2 r q)) = _
  rw [V_main_arg0]
  congr 1
  funext a
  apply Fin.ext
  match a with
  | ⟨0, _⟩ => show win0_0.index t (0 : Fin 2) * 256 + 1 * r.val = r.val; omega
  | ⟨1, _⟩ => show win0_0.index t (1 : Fin 2) * 1024 + 1 * q.val = 1024 * t.val + q.val; omega

/-- Window 1's block at any point is the whole column array the host made of argument 1 (a reshape of its 256
    entries to [256, 1]): entry `(r, 0)` is the argument's entry `r`. -/
theorem column1_apply (c : Dev nD) (t : Fin cfg0.N) (r : Fin 256) :
    iblk m c 1 t (ix2 r (0 : Fin 1)) = (m ((c : Thread nD τ).loc main_arg1)) (ix1 r) := by
  obtain ⟨-, -, e10, e11, e20, e21, e30, e31, e40, e41, -, -⟩ := grid_facts t
  have e : (V m c main_v0 : S256x1.Idx → F .f32) = shapeCast S256x1 (m ((c : Thread nD τ).loc main_arg1)) Facts₀.shapeCasts_S256_S256x1 := by
    dsimp only [Gen.V, Gen.hostOps0]; after_results; rfl
  show V m c main_v0 (((cfg0.win 1).blk t).view.emb (ix2 r (0 : Fin 1))) = _
  rw [e]
  refine shapeCast_apply _ _ _ (ix1 r) ?_
  rw [Shape.rowMajor_val_one, Shape.rowMajor_val_two]
  show r.val = (win0_1.index t (0 : Fin 2) * 256 + 1 * r.val) * 1 + (win0_1.index t (1 : Fin 2) * 1 + 1 * 0)
  omega

/-- Window 2's block at any point is the whole column array the host made of argument 2 (a reshape of its 256
    entries to [256, 1]): entry `(r, 0)` is the argument's entry `r`. -/
theorem column2_apply (c : Dev nD) (t : Fin cfg0.N) (r : Fin 256) :
    iblk m c 2 t (ix2 r (0 : Fin 1)) = (m ((c : Thread nD τ).loc main_arg2)) (ix1 r) := by
  obtain ⟨-, -, e10, e11, e20, e21, e30, e31, e40, e41, -, -⟩ := grid_facts t
  have e : (V m c main_v1 : S256x1.Idx → F .f32) = shapeCast S256x1 (m ((c : Thread nD τ).loc main_arg2)) Facts₀.shapeCasts_S256_S256x1 := by
    dsimp only [Gen.V, Gen.hostOps0]; after_results; rfl
  show V m c main_v1 (((cfg0.win 2).blk t).view.emb (ix2 r (0 : Fin 1))) = _
  rw [e]
  refine shapeCast_apply _ _ _ (ix1 r) ?_
  rw [Shape.rowMajor_val_one, Shape.rowMajor_val_two]
  show r.val = (win0_2.index t (0 : Fin 2) * 256 + 1 * r.val) * 1 + (win0_2.index t (1 : Fin 2) * 1 + 1 * 0)
  omega

/-- Window 3's block at any point is the whole column array the host made of argument 3 (a reshape of its 256
    entries to [256, 1]): entry `(r, 0)` is the argument's entry `r`. -/
theorem column3_apply (c : Dev nD) (t : Fin cfg0.N) (r : Fin 256) :
    iblk m c 3 t (ix2 r (0 : Fin 1)) = (m ((c : Thread nD τ).loc main_arg3)) (ix1 r) := by
  obtain ⟨-, -, e10, e11, e20, e21, e30, e31, e40, e41, -, -⟩ := grid_facts t
  have e : (V m c main_v2 : S256x1.Idx → F .f32) = shapeCast S256x1 (m ((c : Thread nD τ).loc main_arg3)) Facts₀.shapeCasts_S256_S256x1 := by
    dsimp only [Gen.V, Gen.hostOps0]; after_results; rfl
  show V m c main_v2 (((cfg0.win 3).blk t).view.emb (ix2 r (0 : Fin 1))) = _
  rw [e]
  refine shapeCast_apply _ _ _ (ix1 r) ?_
  rw [Shape.rowMajor_val_one, Shape.rowMajor_val_two]
  show r.val = (win0_3.index t (0 : Fin 2) * 256 + 1 * r.val) * 1 + (win0_3.index t (1 : Fin 2) * 1 + 1 * 0)
  omega

/-- Window 4's block at any point is the whole column array the host made of argument 4 (a reshape of its 256
    entries to [256, 1]): entry `(r, 0)` is the argument's entry `r`. -/
theorem column4_apply (c : Dev nD) (t : Fin cfg0.N) (r : Fin 256) :
    iblk m c 4 t (ix2 r (0 : Fin 1)) = (m ((c : Thread nD τ).loc main_arg4)) (ix1 r) := by
  obtain ⟨-, -, e10, e11, e20, e21, e30, e31, e40, e41, -, -⟩ := grid_facts t
  have e : (V m c main_v3 : S256x1.Idx → F .f32) = shapeCast S256x1 (m ((c : Thread nD τ).loc main_arg4)) Facts₀.shapeCasts_S256_S256x1 := by
    dsimp only [Gen.V, Gen.hostOps0]; after_results; rfl
  show V m c main_v3 (((cfg0.win 4).blk t).view.emb (ix2 r (0 : Fin 1))) = _
  rw [e]
  refine shapeCast_apply _ _ _ (ix1 r) ?_
  rw [Shape.rowMajor_val_one, Shape.rowMajor_val_two]
  show r.val = (win0_4.index t (0 : Fin 2) * 256 + 1 * r.val) * 1 + (win0_4.index t (1 : Fin 2) * 1 + 1 * 0)
  omega

/-! ## What a point writes back, and the array after the run -/

/-- WHAT POINT `t` WRITES BACK is block `t` of the chain's output of the argument arrays. -/
theorem writes_back (c : Dev nD) (t : Fin cfg0.N) :
    (dats m 0 c).flushed 5 t = ((cfg0.win 5).blk t).view.read (Elt F)
      (out (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed5]
  unfold out0_5
  simp only [View.ld_unit_zero (S := S256x1024) zero_offsets, View.ld_unit_zero (S := S256x1) zero_offsets]
  obtain ⟨-, -, -, -, -, -, -, -, -, -, e50, e51⟩ := grid_facts t
  funext y
  obtain ⟨r, q, rfl⟩ : ∃ (r : Fin 256) (q : Fin 1024), y = ix2 r q := ⟨y 0, y 1, eq_ix2 y⟩
  refine (Value.canon5_eq (iblk m c 0 t) (iblk m c 1 t) (iblk m c 2 t) (iblk m c 3 t) (iblk m c 4 t) (ix2 r q)).trans ?_
  refine (block_eq_out (m ((c : Thread nD τ).loc main_arg0)) (m ((c : Thread nD τ).loc main_arg1)) (m ((c : Thread nD τ).loc main_arg2)) (m ((c : Thread nD τ).loc main_arg3)) (m ((c : Thread nD τ).loc main_arg4))
    (iblk m c 0 t) (iblk m c 1 t) (iblk m c 2 t) (iblk m c 3 t) (iblk m c 4 t) q
    ⟨1024 * t.val + q.val, by have := point_lt t; have := q.isLt; omega⟩
    (fun r' => lanes_apply m c t r' q) (column1_apply m c t) (column2_apply m c t) (column3_apply m c t) (column4_apply m c t) r).trans ?_
  show out _ _ _ _ _ (ix2 r ⟨1024 * t.val + q.val, _⟩) = out _ _ _ _ _ (((cfg0.win 5).blk t).view.emb (ix2 r q))
  congr 1
  funext a
  apply Fin.ext
  match a with
  | ⟨0, _⟩ => show r.val = win0_5.index t (0 : Fin 2) * 256 + 1 * r.val; omega
  | ⟨1, _⟩ => show 1024 * t.val + q.val = win0_5.index t (1 : Fin 2) * 1024 + 1 * q.val; omega

/-- An index of the result is in point `t`'s block iff each coordinate is in the block's range on its axis. -/
theorem mem_block (t : Fin cfg0.N) (i : S256x131072.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v4).slice (win0_5.rect t)).set ↔ _
  rw [View.set_slice_whole, Rect.mem_set_unit]
  exact Iff.rfl

/-- EVERY INDEX IS WRITTEN: lane `n` belongs to the point numbered `n / 1024`, which holds all 256 rows. -/
theorem covered (i : S256x131072.Idx) :
    ∃ t : Fin cfg0.N, (cfg0.win 5).flush t = true ∧ i ∈ ((cfg0.win 5).blk t).view.set := by
  have hi0 : (i 0).val < 256 := idx2_lt0 i
  have hi1 : (i 1).val < 131072 := idx2_lt1 i
  have hN : (i 1).val / 1024 < cfg0.N := lt_of_lt_of_eq (by omega) N_0.symm
  obtain ⟨-, -, -, -, -, -, -, -, -, -, e50, e51⟩ := grid_facts ⟨(i 1).val / 1024, hN⟩
  have e51' : win0_5.index ⟨(i 1).val / 1024, hN⟩ (1 : Fin 2) = (i 1).val / 1024 := e51
  refine ⟨⟨(i 1).val / 1024, hN⟩, flush0_5 _, ?_⟩
  rw [mem_block]
  intro a
  match a with
  | ⟨0, _⟩ =>
    show win0_5.index ⟨(i 1).val / 1024, hN⟩ (0 : Fin 2) * 256 ≤ (i 0).val
      ∧ (i 0).val < win0_5.index ⟨(i 1).val / 1024, hN⟩ (0 : Fin 2) * 256 + 256
    omega
  | ⟨1, _⟩ =>
    show win0_5.index ⟨(i 1).val / 1024, hN⟩ (1 : Fin 2) * 1024 ≤ (i 1).val
      ∧ (i 1).val < win0_5.index ⟨(i 1).val / 1024, hN⟩ (1 : Fin 2) * 1024 + 1024
    omega

/-- THE RESULT ARRAY after the run is the chain's output of the argument arrays. -/
theorem final (c : Dev nD) : (dats m 0 c).arrAt 5 cfg0.N
    = out (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => writes_back m c t) covered

/-- THE KERNEL'S RUN: every weakly fair execution terminates, nothing faulting, with the result array at the chain's
    output of the argument arrays as launched, and the five argument arrays unchanged. -/
theorem run : θ_run defs (onTc (τ := τ) (main (F := F))) ⟨m, fun _ => 0, ρ⟩ fun r => ∀ c : Dev nD,
      r.2.mem ((c : Thread nD τ).loc main_v4)
        = out (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ChainValue

end
-- ==== Proof.RefRun.lean ====
/-
  The reference program's run, read back.

  The reference is a straight line of 47 host operations: the four per-time-step streams made columns, four delayed
  copies of the input stream (a constant zero broadcast to k rows, the stream's first 256 − k rows, the two joined
  along the rows), and the chain of products and differences. Listed as operations, run once, each buffer then
  holds its operation's function of what its operands held, so the result buffer holds ONE term of the five
  argument arrays: `result` below. Each join of two row blocks is named (`zeroRowsThen k`), so that the term reads as
  the mathematics does: "the stream delayed by k rows" is `delay k`.
-/
import proofs.«119940_j1468878815467_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! ## The pieces of the result, named -/

/-- 1 zero row (any 1-row array `z`) on top of the 255 rows of `b`: the two arrays joined along the rows. -/
def zeroRowsThen1 (z : (⟨S1x131072, .f32⟩ : BufTy).Contents (Elt F)) (b : (⟨S255x131072, .f32⟩ : BufTy).Contents (Elt F)) : (⟨S256x131072, .f32⟩ : BufTy).Contents (Elt F) :=
  concatenate S256x131072 0 [⟨S1x131072, z⟩, ⟨S255x131072, b⟩] concatenates_S1x131072_S255x131072_S256x131072_d0

/-- 2 zero rows (any 2-row array `z`) on top of the 254 rows of `b`: the two arrays joined along the rows. -/
def zeroRowsThen2 (z : (⟨S2x131072, .f32⟩ : BufTy).Contents (Elt F)) (b : (⟨S254x131072, .f32⟩ : BufTy).Contents (Elt F)) : (⟨S256x131072, .f32⟩ : BufTy).Contents (Elt F) :=
  concatenate S256x131072 0 [⟨S2x131072, z⟩, ⟨S254x131072, b⟩] concatenates_S2x131072_S254x131072_S256x131072_d0

/-- 3 zero rows (any 3-row array `z`) on top of the 253 rows of `b`: the two arrays joined along the rows. -/
def zeroRowsThen3 (z : (⟨S3x131072, .f32⟩ : BufTy).Contents (Elt F)) (b : (⟨S253x131072, .f32⟩ : BufTy).Contents (Elt F)) : (⟨S256x131072, .f32⟩ : BufTy).Contents (Elt F) :=
  concatenate S256x131072 0 [⟨S3x131072, z⟩, ⟨S253x131072, b⟩] concatenates_S3x131072_S253x131072_S256x131072_d0

/-- 4 zero rows (any 4-row array `z`) on top of the 252 rows of `b`: the two arrays joined along the rows. -/
def zeroRowsThen4 (z : (⟨S4x131072, .f32⟩ : BufTy).Contents (Elt F)) (b : (⟨S252x131072, .f32⟩ : BufTy).Contents (Elt F)) : (⟨S256x131072, .f32⟩ : BufTy).Contents (Elt F) :=
  concatenate S256x131072 0 [⟨S4x131072, z⟩, ⟨S252x131072, b⟩] concatenates_S4x131072_S252x131072_S256x131072_d0

/-- The input stream delayed by 1 row, as the program builds it: 1 row of the zero constant on top of the stream's first 255 rows. -/
def delay1 (x0 : (⟨S256x131072, .f32⟩ : BufTy).Contents (Elt F)) : (⟨S256x131072, .f32⟩ : BufTy).Contents (Elt F) :=
  zeroRowsThen1 (broadcastInDim S1x131072 ![] bcast_S_S1x131072 (constant S_ .f32 0x00000000#32))
    (extractStridedSlice S255x131072 ![0, 0] x0 slices_S256x131072_S255x131072_0_0)

/-- The input stream delayed by 2 rows, as the program builds it: 2 rows of the zero constant on top of the stream's first 254 rows. -/
def delay2 (x0 : (⟨S256x131072, .f32⟩ : BufTy).Contents (Elt F)) : (⟨S256x131072, .f32⟩ : BufTy).Contents (Elt F) :=
  zeroRowsThen2 (broadcastInDim S2x131072 ![] bcast_S_S2x131072 (constant S_ .f32 0x00000000#32))
    (extractStridedSlice S254x131072 ![0, 0] x0 slices_S256x131072_S254x131072_0_0)

/-- The input stream delayed by 3 rows, as the program builds it: 3 rows of the zero constant on top of the stream's first 253 rows. -/
def delay3 (x0 : (⟨S256x131072, .f32⟩ : BufTy).Contents (Elt F)) : (⟨S256x131072, .f32⟩ : BufTy).Contents (Elt F) :=
  zeroRowsThen3 (broadcastInDim S3x131072 ![] bcast_S_S3x131072 (constant S_ .f32 0x00000000#32))
    (extractStridedSlice S253x131072 ![0, 0] x0 slices_S256x131072_S253x131072_0_0)

/-- The input stream delayed by 4 rows, as the program builds it: 4 rows of the zero constant on top of the stream's first 252 rows. -/
def delay4 (x0 : (⟨S256x131072, .f32⟩ : BufTy).Contents (Elt F)) : (⟨S256x131072, .f32⟩ : BufTy).Contents (Elt F) :=
  zeroRowsThen4 (broadcastInDim S4x131072 ![] bcast_S_S4x131072 (constant S_ .f32 0x00000000#32))
    (extractStridedSlice S252x131072 ![0, 0] x0 slices_S256x131072_S252x131072_0_0)

/-- A per-time-step stream as a full array: entry `t` in every column of row `t` (made a column, then broadcast along the lanes). -/
def perStep (c : (⟨S256, .f32⟩ : BufTy).Contents (Elt F)) : (⟨S256x131072, .f32⟩ : BufTy).Contents (Elt F) :=
  broadcastInDim S256x131072 ![0, 1] bcast_S256x1_S256x131072_0_1 (broadcastInDim S256x1 ![0] bcast_S256_S256x1_0 c)

/-- The constant one at every index. -/
def ones : (⟨S256x131072, .f32⟩ : BufTy).Contents (Elt F) :=
  broadcastInDim S256x131072 ![] bcast_S_S256x131072 (constant S_ .f32 0x3F800000#32)

/-- What the result buffer holds after the run, as one term of the five argument arrays:
    `1 − (1 − ((1 − ((1 − ((1 − x·c1)·c2)·d1)·c3)·d2)·c4)·d3)·d4`, every operation on whole arrays. -/
def result (x0 : (⟨S256x131072, .f32⟩ : BufTy).Contents (Elt F)) (x1 x2 x3 x4 : (⟨S256, .f32⟩ : BufTy).Contents (Elt F)) : (⟨S256x131072, .f32⟩ : BufTy).Contents (Elt F) :=
  subf ones (mulf (subf ones (mulf (mulf (subf ones (mulf (mulf (subf ones (mulf (mulf (subf ones (mulf x0 (perStep x1)))
    (perStep x2)) (delay1 x0))) (perStep x3)) (delay2 x0))) (perStep x4)) (delay3 x0))) (delay4 x0))

/-! ## The program as a list of operations, and its run -/

/-- @main's 47 operations, in order. -/
abbrev ops : List (HloOp τ sig (Elt F)) :=
  [ unary main_arg1 main_v0 (broadcastInDim S256x1 ![0] bcast_S256_S256x1_0 : (⟨S256, .f32⟩ : BufTy).Contents (Elt F) → (⟨S256x1, .f32⟩ : BufTy).Contents (Elt F)),
    unary main_arg2 main_v1 (broadcastInDim S256x1 ![0] bcast_S256_S256x1_0 : (⟨S256, .f32⟩ : BufTy).Contents (Elt F) → (⟨S256x1, .f32⟩ : BufTy).Contents (Elt F)),
    unary main_arg3 main_v2 (broadcastInDim S256x1 ![0] bcast_S256_S256x1_0 : (⟨S256, .f32⟩ : BufTy).Contents (Elt F) → (⟨S256x1, .f32⟩ : BufTy).Contents (Elt F)),
    unary main_arg4 main_v3 (broadcastInDim S256x1 ![0] bcast_S256_S256x1_0 : (⟨S256, .f32⟩ : BufTy).Contents (Elt F) → (⟨S256x1, .f32⟩ : BufTy).Contents (Elt F)),
    nullary main_cst (constant S_ .f32 0x00000000#32),
    unary main_cst main_v4 (broadcastInDim S1x131072 ![] bcast_S_S1x131072 : (⟨S_, .f32⟩ : BufTy).Contents (Elt F) → (⟨S1x131072, .f32⟩ : BufTy).Contents (Elt F)),
    unary main_arg0 main_v5 ((extractStridedSlice S255x131072 ![0, 0] · slices_S256x131072_S255x131072_0_0) : (⟨S256x131072, .f32⟩ : BufTy).Contents (Elt F) → (⟨S255x131072, .f32⟩ : BufTy).Contents (Elt F)),
    binary main_v4 main_v5 main_v6 (zeroRowsThen1 : (⟨S1x131072, .f32⟩ : BufTy).Contents (Elt F) → (⟨S255x131072, .f32⟩ : BufTy).Contents (Elt F) → (⟨S256x131072, .f32⟩ : BufTy).Contents (Elt F)),
    nullary main_cst_0 (constant S_ .f32 0x00000000#32),
    unary main_cst_0 main_v7 (broadcastInDim S2x131072 ![] bcast_S_S2x131072 : (⟨S_, .f32⟩ : BufTy).Contents (Elt F) → (⟨S2x131072, .f32⟩ : BufTy).Contents (Elt F)),
    unary main_arg0 main_v8 ((extractStridedSlice S254x131072 ![0, 0] · slices_S256x131072_S254x131072_0_0) : (⟨S256x131072, .f32⟩ : BufTy).Contents (Elt F) → (⟨S254x131072, .f32⟩ : BufTy).Contents (Elt F)),
    binary main_v7 main_v8 main_v9 (zeroRowsThen2 : (⟨S2x131072, .f32⟩ : BufTy).Contents (Elt F) → (⟨S254x131072, .f32⟩ : BufTy).Contents (Elt F) → (⟨S256x131072, .f32⟩ : BufTy).Contents (Elt F)),
    nullary main_cst_1 (constant S_ .f32 0x00000000#32),
    unary main_cst_1 main_v10 (broadcastInDim S3x131072 ![] bcast_S_S3x131072 : (⟨S_, .f32⟩ : BufTy).Contents (Elt F) → (⟨S3x131072, .f32⟩ : BufTy).Contents (Elt F)),
    unary main_arg0 main_v11 ((extractStridedSlice S253x131072 ![0, 0] · slices_S256x131072_S253x131072_0_0) : (⟨S256x131072, .f32⟩ : BufTy).Contents (Elt F) → (⟨S253x131072, .f32⟩ : BufTy).Contents (Elt F)),
    binary main_v10 main_v11 main_v12 (zeroRowsThen3 : (⟨S3x131072, .f32⟩ : BufTy).Contents (Elt F) → (⟨S253x131072, .f32⟩ : BufTy).Contents (Elt F) → (⟨S256x131072, .f32⟩ : BufTy).Contents (Elt F)),
    nullary main_cst_2 (constant S_ .f32 0x00000000#32),
    unary main_cst_2 main_v13 (broadcastInDim S4x131072 ![] bcast_S_S4x131072 : (⟨S_, .f32⟩ : BufTy).Contents (Elt F) → (⟨S4x131072, .f32⟩ : BufTy).Contents (Elt F)),
    unary main_arg0 main_v14 ((extractStridedSlice S252x131072 ![0, 0] · slices_S256x131072_S252x131072_0_0) : (⟨S256x131072, .f32⟩ : BufTy).Contents (Elt F) → (⟨S252x131072, .f32⟩ : BufTy).Contents (Elt F)),
    binary main_v13 main_v14 main_v15 (zeroRowsThen4 : (⟨S4x131072, .f32⟩ : BufTy).Contents (Elt F) → (⟨S252x131072, .f32⟩ : BufTy).Contents (Elt F) → (⟨S256x131072, .f32⟩ : BufTy).Contents (Elt F)),
    unary main_v0 main_v16 (broadcastInDim S256x131072 ![0, 1] bcast_S256x1_S256x131072_0_1 : (⟨S256x1, .f32⟩ : BufTy).Contents (Elt F) → (⟨S256x131072, .f32⟩ : BufTy).Contents (Elt F)),
    binary main_arg0 main_v16 main_v17 (mulf : (⟨S256x131072, .f32⟩ : BufTy).Contents (Elt F) → (⟨S256x131072, .f32⟩ : BufTy).Contents (Elt F) → (⟨S256x131072, .f32⟩ : BufTy).Contents (Elt F)),
    nullary main_cst_3 (constant S_ .f32 0x3F800000#32),
    unary main_cst_3 main_v18 (broadcastInDim S256x131072 ![] bcast_S_S256x131072 : (⟨S_, .f32⟩ : BufTy).Contents (Elt F) → (⟨S256x131072, .f32⟩ : BufTy).Contents (Elt F)),
    binary main_v18 main_v17 main_v19 (subf : (⟨S256x131072, .f32⟩ : BufTy).Contents (Elt F) → (⟨S256x131072, .f32⟩ : BufTy).Contents (Elt F) → (⟨S256x131072, .f32⟩ : BufTy).Contents (Elt F)),
    unary main_v1 main_v20 (broadcastInDim S256x131072 ![0, 1] bcast_S256x1_S256x131072_0_1 : (⟨S256x1, .f32⟩ : BufTy).Contents (Elt F) → (⟨S256x131072, .f32⟩ : BufTy).Contents (Elt F)),
    binary main_v19 main_v20 main_v21 (mulf : (⟨S256x131072, .f32⟩ : BufTy).Contents (Elt F) → (⟨S256x131072, .f32⟩ : BufTy).Contents (Elt F) → (⟨S256x131072, .f32⟩ : BufTy).Contents (Elt F)),
    binary main_v21 main_v6 main_v22 (mulf : (⟨S256x131072, .f32⟩ : BufTy).Contents (Elt F) → (⟨S256x131072, .f32⟩ : BufTy).Contents (Elt F) → (⟨S256x131072, .f32⟩ : BufTy).Contents (Elt F)),
    nullary main_cst_4 (constant S_ .f32 0x3F800000#32),
    unary main_cst_4 main_v23 (broadcastInDim S256x131072 ![] bcast_S_S256x131072 : (⟨S_, .f32⟩ : BufTy).Contents (Elt F) → (⟨S256x131072, .f32⟩ : BufTy).Contents (Elt F)),
    binary main_v23 main_v22 main_v24 (subf : (⟨S256x131072, .f32⟩ : BufTy).Contents (Elt F) → (⟨S256x131072, .f32⟩ : BufTy).Contents (Elt F) → (⟨S256x131072, .f32⟩ : BufTy).Contents (Elt F)),
    unary main_v2 main_v25 (broadcastInDim S256x131072 ![0, 1] bcast_S256x1_S256x131072_0_1 : (⟨S256x1, .f32⟩ : BufTy).Contents (Elt F) → (⟨S256x131072, .f32⟩ : BufTy).Contents (Elt F)),
    binary main_v24 main_v25 main_v26 (mulf : (⟨S256x131072, .f32⟩ : BufTy).Contents (Elt F) → (⟨S256x131072, .f32⟩ : BufTy).Contents (Elt F) → (⟨S256x131072, .f32⟩ : BufTy).Contents (Elt F)),
    binary main_v26 main_v9 main_v27 (mulf : (⟨S256x131072, .f32⟩ : BufTy).Contents (Elt F) → (⟨S256x131072, .f32⟩ : BufTy).Contents (Elt F) → (⟨S256x131072, .f32⟩ : BufTy).Contents (Elt F)),
    nullary main_cst_5 (constant S_ .f32 0x3F800000#32),
    unary main_cst_5 main_v28 (broadcastInDim S256x131072 ![] bcast_S_S256x131072 : (⟨S_, .f32⟩ : BufTy).Contents (Elt F) → (⟨S256x131072, .f32⟩ : BufTy).Contents (Elt F)),
    binary main_v28 main_v27 main_v29 (subf : (⟨S256x131072, .f32⟩ : BufTy).Contents (Elt F) → (⟨S256x131072, .f32⟩ : BufTy).Contents (Elt F) → (⟨S256x131072, .f32⟩ : BufTy).Contents (Elt F)),
    unary main_v3 main_v30 (broadcastInDim S256x131072 ![0, 1] bcast_S256x1_S256x131072_0_1 : (⟨S256x1, .f32⟩ : BufTy).Contents (Elt F) → (⟨S256x131072, .f32⟩ : BufTy).Contents (Elt F)),
    binary main_v29 main_v30 main_v31 (mulf : (⟨S256x131072, .f32⟩ : BufTy).Contents (Elt F) → (⟨S256x131072, .f32⟩ : BufTy).Contents (Elt F) → (⟨S256x131072, .f32⟩ : BufTy).Contents (Elt F)),
    binary main_v31 main_v12 main_v32 (mulf : (⟨S256x131072, .f32⟩ : BufTy).Contents (Elt F) → (⟨S256x131072, .f32⟩ : BufTy).Contents (Elt F) → (⟨S256x131072, .f32⟩ : BufTy).Contents (Elt F)),
    nullary main_cst_6 (constant S_ .f32 0x3F800000#32),
    unary main_cst_6 main_v33 (broadcastInDim S256x131072 ![] bcast_S_S256x131072 : (⟨S_, .f32⟩ : BufTy).Contents (Elt F) → (⟨S256x131072, .f32⟩ : BufTy).Contents (Elt F)),
    binary main_v33 main_v32 main_v34 (subf : (⟨S256x131072, .f32⟩ : BufTy).Contents (Elt F) → (⟨S256x131072, .f32⟩ : BufTy).Contents (Elt F) → (⟨S256x131072, .f32⟩ : BufTy).Contents (Elt F)),
    binary main_v34 main_v15 main_v35 (mulf : (⟨S256x131072, .f32⟩ : BufTy).Contents (Elt F) → (⟨S256x131072, .f32⟩ : BufTy).Contents (Elt F) → (⟨S256x131072, .f32⟩ : BufTy).Contents (Elt F)),
    nullary main_cst_7 (constant S_ .f32 0x3F800000#32),
    unary main_cst_7 main_v36 (broadcastInDim S256x131072 ![] bcast_S_S256x131072 : (⟨S_, .f32⟩ : BufTy).Contents (Elt F) → (⟨S256x131072, .f32⟩ : BufTy).Contents (Elt F)),
    binary main_v36 main_v35 main_v37 (subf : (⟨S256x131072, .f32⟩ : BufTy).Contents (Elt F) → (⟨S256x131072, .f32⟩ : BufTy).Contents (Elt F) → (⟨S256x131072, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., unary_bufs_sub .., nullary_bufs_sub .., unary_bufs_sub .., unary_bufs_sub .., binary_bufs_sub .., nullary_bufs_sub .., unary_bufs_sub .., unary_bufs_sub .., binary_bufs_sub .., nullary_bufs_sub .., unary_bufs_sub .., unary_bufs_sub .., binary_bufs_sub .., nullary_bufs_sub .., unary_bufs_sub .., unary_bufs_sub .., binary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., unary_bufs_sub .., binary_bufs_sub .., binary_bufs_sub .., nullary_bufs_sub .., unary_bufs_sub .., binary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

set_option maxRecDepth 8192 in
set_option maxHeartbeats 2000000 in
/-- Every weakly fair execution of the reference terminates, nothing faulting, with the result buffer at `result` of
    the argument arrays as launched, and the five argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v37).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.HostRun

end
-- ==== Proof.RefValue.lean ====
/-
  The reference computes the chain.

  The term the reference's run leaves in its result buffer (`HostRun.result`: operations on whole arrays) is, read at
  an index (t, n), the specification `DelayChain.out`: a constant broadcast from a scalar is the constant at every
  index; a per-time-step stream made a column and broadcast along the lanes is its entry t; and each delayed copy of
  the input — k zero rows joined on top of the stream's first 256 − k rows — is row t − k from row k on and zero
  before. The products and differences are taken entry by entry in the same grouping on both sides.
-/
import proofs.«119940_j1468878815467_1_alg».proof.Proof.RefRun
import proofs.«119940_j1468878815467_1_alg».proof.Proof.DelayChain
import proofs.«119940_j1468878815467_1_alg».proof.Proof.LibDelayRows

noncomputable section

namespace Cert.ReferenceIdeal.RefValue

open Cert.ReferenceIdeal Cert.ReferenceIdeal.Gen Cert.ReferenceIdeal.HostRun Cert.DelayChain
open Idealize.ShloMosaic Idealize.ShloMosaic.ValueIdx

variable {F : FTy → Type} [FloatOps F]

/-- The broadcast constant one is one at every index. -/
theorem ones_apply (j : S256x131072.Idx) : ones (F := F) j = one := by
  unfold ones
  exact (broadcastInDim_apply ![] bcast_S_S256x131072 (constant S_ .f32 0x3F800000#32) j (fun a => a.elim0) (fun a => a.elim0)).trans rfl

/-- A per-time-step stream spread over the array reads its entry `t` everywhere in row `t`. -/
theorem perStep_apply (c : (⟨S256, .f32⟩ : BufTy).Contents (Elt F)) (r : Fin 256) (q : Fin 131072) : perStep c (ix2 r q) = c (ix1 r) := by
  unfold perStep
  refine (broadcastInDim_apply ![0, 1] bcast_S256x1_S256x131072_0_1 _ (ix2 r q) (ix2 r (0 : Fin 1)) (fun a => match a with
    | ⟨0, _⟩ => by show r.val = if (256 : Nat) = 1 then 0 else r.val; rw [if_neg (by decide)]
    | ⟨1, _⟩ => by show 0 = if (1 : Nat) = 1 then 0 else q.val; rw [if_pos rfl])).trans ?_
  exact broadcastInDim_apply ![0] bcast_S256_S256x1_0 c (ix2 r (0 : Fin 1)) (ix1 r) (fun a => match a with
    | ⟨0, _⟩ => by show r.val = if (256 : Nat) = 1 then 0 else r.val; rw [if_neg (by decide)])

/-- The reference's 1-row delay — 1 zero row on top of the first 255 rows — is the specification's, at every index. -/
theorem delay1_apply (x0 : (⟨S256x131072, .f32⟩ : BufTy).Contents (Elt F)) (r : Fin 256) (q : Fin 131072) :
    delay1 x0 (ix2 r q) = delayed 1 x0 r q := by
  unfold delay1 zeroRowsThen1 delayed
  exact DelayRows.hostDelay_apply (a := 1) (b := 255) rfl concatenates_S1x131072_S255x131072_S256x131072_d0
    slices_S256x131072_S255x131072_0_0 _ zero
    (fun i => (broadcastInDim_apply ![] bcast_S_S1x131072 (constant S_ .f32 0x00000000#32) i (fun a => a.elim0) (fun a => a.elim0)).trans rfl)
    x0 r q

/-- The reference's 2-row delay — 2 zero rows on top of the first 254 rows — is the specification's, at every index. -/
theorem delay2_apply (x0 : (⟨S256x131072, .f32⟩ : BufTy).Contents (Elt F)) (r : Fin 256) (q : Fin 131072) :
    delay2 x0 (ix2 r q) = delayed 2 x0 r q := by
  unfold delay2 zeroRowsThen2 delayed
  exact DelayRows.hostDelay_apply (a := 2) (b := 254) rfl concatenates_S2x131072_S254x131072_S256x131072_d0
    slices_S256x131072_S254x131072_0_0 _ zero
    (fun i => (broadcastInDim_apply ![] bcast_S_S2x131072 (constant S_ .f32 0x00000000#32) i (fun a => a.elim0) (fun a => a.elim0)).trans rfl)
    x0 r q

/-- The reference's 3-row delay — 3 zero rows on top of the first 253 rows — is the specification's, at every index. -/
theorem delay3_apply (x0 : (⟨S256x131072, .f32⟩ : BufTy).Contents (Elt F)) (r : Fin 256) (q : Fin 131072) :
    delay3 x0 (ix2 r q) = delayed 3 x0 r q := by
  unfold delay3 zeroRowsThen3 delayed
  exact DelayRows.hostDelay_apply (a := 3) (b := 253) rfl concatenates_S3x131072_S253x131072_S256x131072_d0
    slices_S256x131072_S253x131072_0_0 _ zero
    (fun i => (broadcastInDim_apply ![] bcast_S_S3x131072 (constant S_ .f32 0x00000000#32) i (fun a => a.elim0) (fun a => a.elim0)).trans rfl)
    x0 r q

/-- The reference's 4-row delay — 4 zero rows on top of the first 252 rows — is the specification's, at every index. -/
theorem delay4_apply (x0 : (⟨S256x131072, .f32⟩ : BufTy).Contents (Elt F)) (r : Fin 256) (q : Fin 131072) :
    delay4 x0 (ix2 r q) = delayed 4 x0 r q := by
  unfold delay4 zeroRowsThen4 delayed
  exact DelayRows.hostDelay_apply (a := 4) (b := 252) rfl concatenates_S4x131072_S252x131072_S256x131072_d0
    slices_S256x131072_S252x131072_0_0 _ zero
    (fun i => (broadcastInDim_apply ![] bcast_S_S4x131072 (constant S_ .f32 0x00000000#32) i (fun a => a.elim0) (fun a => a.elim0)).trans rfl)
    x0 r q

/-- THE REFERENCE'S RESULT IS THE CHAIN: the term its run leaves is `DelayChain.out` of the argument arrays. -/
theorem result_eq (x0 : (⟨S256x131072, .f32⟩ : BufTy).Contents (Elt F)) (x1 x2 x3 x4 : (⟨S256, .f32⟩ : BufTy).Contents (Elt F)) :
    result x0 x1 x2 x3 x4 = out x0 x1 x2 x3 x4 := by
  funext j
  obtain ⟨r, q, rfl⟩ : ∃ (r : Fin 256) (q : Fin 131072), j = ix2 r q := ⟨j 0, j 1, eq_ix2 j⟩
  simp only [result, subf, mulf, ones_apply, perStep_apply, delay1_apply, delay2_apply, delay3_apply, delay4_apply]
  rfl

end Cert.ReferenceIdeal.RefValue

end
-- ==== Proof.lean ====
/-
  A chain of four gated stages over a bitstream, as a Pallas kernel and as its jnp reference: the proof of `Cert.Claim`.

  The input is a stream `x` of 256 time steps (rows) by 131072 lanes and four per-time-step streams `c1 … c4`. With `d_k`
  the stream delayed by `k` rows (row `t − k` of `x` from row `k` on, zero before), both programs compute

      1 − (1 − ((1 − ((1 − ((1 − x·c1)·c2)·d_1)·c3)·d_2)·c4)·d_3)·d_4          (Proof/DelayChain.lean, `out`)

  entry by entry, with the products grouped as written. They differ only in how they spell a delay and in the tiling:
  the reference joins `k` zero rows on top of the stream's first `256 − k` rows; the kernel, which keeps the whole time
  axis of 1024 lanes in one block, rolls the block by `k` along the rows and masks the first `k` rows to zero. Read at
  an index the two are the same `if k ≤ t then x (t − k, n) else 0` (Proof/LibDelayRows.lean), so the two results are
  the SAME term of the inputs' entries — at any reading of the floats, with no law of arithmetic and no use of the
  inputs' finiteness.

  * The reference's side: its 47 host operations run once leave one term of the argument arrays in the result buffer
    (Proof/RefRun.lean), and that term read at an index is `out` (Proof/RefValue.lean).
  * The kernel's side: the body on one block leaves the chain of the lanes it was given (Proof/KernelBlock.lean, over
    the generated reading of the body at an index), point `t` of the 128 writes back block `t` of `out` of the argument
    arrays, and the blocks fill the result (Proof/KernelValue.lean, over the generated frame run).
  * The three frames are the generated frame runs (the reference's is its run with the result forgotten); the ideal
    pass rewrote nothing, so the kernel's idealization is the kernel's own text and `preserves` is `True`.
-/
import proofs.«119940_j1468878815467_1_alg».proof.Defs
import proofs.«119940_j1468878815467_1_alg».proof.Proof.Gen.Kernel
import proofs.«119940_j1468878815467_1_alg».proof.Proof.Gen.Kernel.Skeleton
import proofs.«119940_j1468878815467_1_alg».proof.Proof.Gen.Kernel.Launch
import proofs.«119940_j1468878815467_1_alg».proof.Proof.Gen.Kernel.Points
import proofs.«119940_j1468878815467_1_alg».proof.Proof.Gen.Kernel.Frame
import proofs.«119940_j1468878815467_1_alg».proof.Proof.Gen.KernelIdeal
import proofs.«119940_j1468878815467_1_alg».proof.Proof.Gen.KernelIdeal.Skeleton
import proofs.«119940_j1468878815467_1_alg».proof.Proof.Gen.KernelIdeal.Launch
import proofs.«119940_j1468878815467_1_alg».proof.Proof.Gen.KernelIdeal.Points
import proofs.«119940_j1468878815467_1_alg».proof.Proof.Gen.KernelIdeal.Frame
import proofs.«119940_j1468878815467_1_alg».proof.Proof.Gen.ReferenceIdeal
import proofs.«119940_j1468878815467_1_alg».proof.Proof.Gen.Pre_finite_inputs
import proofs.«119940_j1468878815467_1_alg».proof.Proof.Gen.KernelIdeal.Value
import proofs.«119940_j1468878815467_1_alg».proof.Proof.KernelValue
import proofs.«119940_j1468878815467_1_alg».proof.Proof.RefValue
import Idealize.ShloMosaic.Adequacy
import Idealize.ShloMosaic.Init

noncomputable section

namespace Cert.Proof

open Idealize.ShloMosaic Idealize.SL.Sem

/-- The kernel as printed runs, and leaves its arguments as they were: the generated frame run. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- The ideal pass rewrote no operation: there is nothing to restate. -/
theorem preserves : Cert.preserves_Kernel_KernelIdeal := trivial

/-- From memories that agree on the five arguments, the kernel's result array and the reference's result buffer both end
    at the chain's output of those arguments: the kernel's by its run, the reference's by its run and `result_eq`. -/
theorem algebraic : Cert.algebraic_KernelIdeal_ReferenceIdeal := by
  intro m ρ m' ρ' _ hagree
  refine ⟨_, Cert.KernelIdeal.ChainValue.run (F := Ideal) m ρ, ?_⟩
  refine (θ_run Cert.ReferenceIdeal.defs _ _).mono (fun _ h c => ⟨(h c).1.trans ?_, (h c).2⟩)
    (Cert.ReferenceIdeal.HostRun.run (F := Ideal) m' ρ')
  rw [Cert.ReferenceIdeal.RefValue.result_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
